-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v52)) (v1 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_v53) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v46) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S50000x64 : Shape := ⟨2, ![50000, 64]⟩
abbrev S4000000 : Shape := ⟨1, ![4000000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S4000000 : S_.BroadcastsInDim S4000000 (![] : Fin 0 → Fin S4000000.rank)
  reducesTo_S4000000_S_d0 : S4000000.ReducesTo [0] S_

variable [Facts]

def fn {F : FTy → Type} [FloatOps F] (main_arg0 : FVec F S100000x64 .f32) (main_arg1 : FVec F S50000x64 .f32) (main_arg2 : FVec F S4000000 .f32) (main_arg3 : IVec S4000000 32) (main_arg4 : IVec S4000000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S4000000 .f32 := Host.absf main_arg2
  let main_cst_2 : FVec F S_ .f32 := constant S_ .f32 0x7F800000#32
  let main_v10 : FVec F S4000000 .f32 := broadcastInDim S4000000 ![] bcast_S_S4000000 main_cst_2
  let main_v11 : IVec S4000000 1 := cmpf .olt main_v9 main_v10
  let main_c_3 : IVec S_ 1 := constantI S_ 1 1#1
  let main_v12 : IVec S_ 1 := (fun x v => Host.reduce IntOp.andi x v reducesTo_S4000000_S_d0 h_S_) main_v11 main_c_3
  let main_v13 : IVec S_ 1 := andi main_v8 main_v12
  main_v13
-- ==== Kernel.lean ====
abbrev S100000x64 : Shape := ⟨2, ![100000, 64]⟩
abbrev S50000x64 : Shape := ⟨2, ![50000, 64]⟩
abbrev S4000000 : Shape := ⟨1, ![4000000]⟩
abbrev S150000x64 : Shape := ⟨2, ![150000, 64]⟩
abbrev S4000000x1 : Shape := ⟨2, ![4000000, 1]⟩
abbrev S_ : Shape := ⟨0, ![]⟩
abbrev S4000000x64 : Shape := ⟨2, ![4000000, 64]⟩
abbrev S75000x128 : Shape := ⟨2, ![75000, 128]⟩
abbrev S5000x128 : Shape := ⟨2, ![5000, 128]⟩

abbrev nBuf : Space → Nat
  | .hbm => 68
  | .vmem => 18
  | .smem => 0
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S4000000, .f32⟩
  | .hbm, ⟨3, _⟩ => ⟨S4000000, .i32⟩
  | .hbm, ⟨4, _⟩ => ⟨S4000000, .i32⟩
  | .hbm, ⟨5, _⟩ => ⟨S150000x64, .f32⟩
  | .hbm, ⟨6, _⟩ => ⟨S4000000x1, .f32⟩
  | .hbm, ⟨7, _⟩ => ⟨S_, .i32⟩
  | .hbm, ⟨8, _⟩ => ⟨S4000000, .i32⟩
  | .hbm, ⟨9, _⟩ => ⟨S4000000, .i1⟩
  | .hbm, ⟨10, _⟩ => ⟨S_, .i32⟩
  | .hbm, ⟨11, _⟩ => ⟨S4000000, .i32⟩
  | .hbm, ⟨12, _⟩ => ⟨S4000000, .i32⟩
  | .hbm, ⟨13, _⟩ => ⟨S4000000, .i32⟩
  | .hbm, ⟨14, _⟩ => ⟨S4000000x1, .i32⟩
  | .hbm, ⟨15, _⟩ => ⟨S4000000x64, .f32⟩
  | .hbm, ⟨16, _⟩ => ⟨S4000000x64, .f32⟩
  | .hbm, ⟨17, _⟩ => ⟨S4000000x64, .f32⟩
  | .hbm, ⟨18, _⟩ => ⟨S_, .f32⟩
  | .hbm, ⟨19, _⟩ => ⟨S150000x64, .f32⟩
  | .hbm, ⟨20, _⟩ => ⟨S4000000x1, .i32⟩
  | .hbm, ⟨21, _⟩ => ⟨S150000x64, .f32⟩
  | .hbm, ⟨22, _⟩ => ⟨S75000x128, .f32⟩
  | .hbm, ⟨23, _⟩ => ⟨S75000x128, .f32⟩
  | .hbm, ⟨24, _⟩ => ⟨S75000x128, .f32⟩
  | .hbm, ⟨25, _⟩ => ⟨S150000x64, .f32⟩
  | .hbm, ⟨26, _⟩ => ⟨S4000000x1, .f32⟩
  | .hbm, ⟨27, _⟩ => ⟨S_, .i32⟩
  | .hbm, ⟨28, _⟩ => ⟨S4000000, .i32⟩
  | .hbm, ⟨29, _⟩ => ⟨S4000000, .i1⟩
  | .hbm, ⟨30, _⟩ => ⟨S_, .i32⟩
  | .hbm, ⟨31, _⟩ => ⟨S4000000, .i32⟩
  | .hbm, ⟨32, _⟩ => ⟨S4000000, .i32⟩
  | .hbm, ⟨33, _⟩ => ⟨S4000000, .i32⟩
  | .hbm, ⟨34, _⟩ => ⟨S4000000x1, .i32⟩
  | .hbm, ⟨35, _⟩ => ⟨S4000000x64, .f32⟩
  | .hbm, ⟨36, _⟩ => ⟨S4000000x64, .f32⟩
  | .hbm, ⟨37, _⟩ => ⟨S4000000x64, .f32⟩
  | .hbm, ⟨38, _⟩ => ⟨S_, .f32⟩
  | .hbm, ⟨39, _⟩ => ⟨S150000x64, .f32⟩
  | .hbm, ⟨40, _⟩ => ⟨S4000000x1, .i32⟩
  | .hbm, ⟨41, _⟩ => ⟨S150000x64, .f32⟩
  | .hbm, ⟨42, _⟩ => ⟨S75000x128, .f32⟩
  | .hbm, ⟨43, _⟩ => ⟨S75000x128, .f32⟩
  | .hbm, ⟨44, _⟩ => ⟨S75000x128, .f32⟩
  | .hbm, ⟨45, _⟩ => ⟨S150000x64, .f32⟩
  | .hbm, ⟨46, _⟩ => ⟨S4000000x1, .f32⟩
  | .hbm, ⟨47, _⟩ => ⟨S_, .i32⟩
  | .hbm, ⟨48, _⟩ => ⟨S4000000, .i32⟩
  | .hbm, ⟨49, _⟩ => ⟨S4000000, .i1⟩
  | .hbm, ⟨50, _⟩ => ⟨S_, .i32⟩
  | .hbm, ⟨51, _⟩ => ⟨S4000000, .i32⟩
  | .hbm, ⟨52, _⟩ => ⟨S4000000, .i32⟩
  | .hbm, ⟨53, _⟩ => ⟨S4000000, .i32⟩
  | .hbm, ⟨54, _⟩ => ⟨S4000000x1, .i32⟩
  | .hbm, ⟨55, _⟩ => ⟨S4000000x64, .f32⟩
  | .hbm, ⟨56, _⟩ => ⟨S4000000x64, .f32⟩
  | .hbm, ⟨57, _⟩ => ⟨S4000000x64, .f32⟩
  | .hbm, ⟨58, _⟩ => ⟨S_, .f32⟩
  | .hbm, ⟨59, _⟩ => ⟨S150000x64, .f32⟩
  | .hbm, ⟨60, _⟩ => ⟨S4000000x1, .i32⟩
  | .hbm, ⟨61, _⟩ => ⟨S150000x64, .f32⟩
  | .hbm, ⟨62, _⟩ => ⟨S75000x128, .f32⟩
  | .hbm, ⟨63, _⟩ => ⟨S75000x128, .f32⟩
  | .hbm, ⟨64, _⟩ => ⟨S75000x128, .f32⟩
  | .hbm, ⟨65, _⟩ => ⟨S150000x64, .f32⟩
  | .hbm, ⟨66, _⟩ => ⟨S100000x64, .f32⟩
  | .hbm, ⟨67, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_1 : Ref sig .tc := ⟨.hbm, 27, rfl⟩
abbrev main_v19 : Ref sig .tc := ⟨.hbm, 28, rfl⟩
abbrev main_v20 : Ref sig .tc := ⟨.hbm, 29, rfl⟩
abbrev main_c_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_c_4 : Ref sig .tc := ⟨.hbm, 47, rfl⟩
abbrev main_v36 : Ref sig .tc := ⟨.hbm, 48, rfl⟩
abbrev main_v37 : Ref sig .tc := ⟨.hbm, 49, rfl⟩
abbrev main_c_5 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_6 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨1, ![15], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![15], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![15], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  concatenates_S100000x64_S50000x64_S150000x64_d0 : Shape.Concatenates [S100000x64, S50000x64] S150000x64 0
  bcast_S4000000_S4000000x1_0 : S4000000.BroadcastsInDim S4000000x1 (![0] : Fin 1 → Fin S4000000x1.rank)
  bcast_S_S4000000 : S_.BroadcastsInDim S4000000 (![] : Fin 0 → Fin S4000000.rank)
  bcast_S4000000x1_S4000000x64_0_1 : S4000000x1.BroadcastsInDim S4000000x64 (![0, 1] : Fin 2 → Fin S4000000x64.rank)
  bcast_S_S150000x64 : S_.BroadcastsInDim S150000x64 (![] : Fin 0 → Fin S150000x64.rank)
  shapeCasts_S150000x64_S75000x128 : S150000x64.ShapeCasts S75000x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  shapeCasts_S75000x128_S150000x64 : S75000x128.ShapeCasts S150000x64
  slices_S150000x64_S100000x64_0_0 : S150000x64.Slices ![0, 0] S100000x64
  slices_S150000x64_S50000x64_100000_0 : S150000x64.Slices ![100000, 0] S50000x64
  gather_S150000x64_S4000000x1_S4000000x64_1_0_n_n_0_1_164_wf : GatherDims.WF S150000x64 S4000000x1 S4000000x64 [1] [0] [] [0] [] 1 ![1, 64]
  scatter_S150000x64_S4000000x1_S4000000x64_1_0_0_1_wf : ScatterDims.WF S150000x64 S4000000x1 S4000000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S75000x128.size a
  hwx0_0 : ∀ i : grid0.Coords, EltTy.bits .f32 = 32 ∨ (Rect.block (s := S75000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S75000x128.size a
  hwx0_1 : ∀ i : grid0.Coords, EltTy.bits .f32 = 32 ∨ (Rect.block (s := S75000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S75000x128.size a
  hwx0_2 : ∀ i : grid0.Coords, EltTy.bits .f32 = 32 ∨ (Rect.block (s := S75000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S75000x128.size a
  hwx1_0 : ∀ i : grid1.Coords, EltTy.bits .f32 = 32 ∨ (Rect.block (s := S75000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S75000x128.size a
  hwx1_1 : ∀ i : grid1.Coords, EltTy.bits .f32 = 32 ∨ (Rect.block (s := S75000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S75000x128.size a
  hwx1_2 : ∀ i : grid1.Coords, EltTy.bits .f32 = 32 ∨ (Rect.block (s := S75000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S75000x128.size a
  hwx2_0 : ∀ i : grid2.Coords, EltTy.bits .f32 = 32 ∨ (Rect.block (s := S75000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S75000x128.size a
  hwx2_1 : ∀ i : grid2.Coords, EltTy.bits .f32 = 32 ∨ (Rect.block (s := S75000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S75000x128.size a
  hwx2_2 : ∀ i : grid2.Coords, EltTy.bits .f32 = 32 ∨ (Rect.block (s := S75000x128) S5000x128.size (cc2_transform_2 i) (hinb2_2 i)).WholeWords (EltTy.packing .f32)

variable [Facts₀]

def gather_S150000x64_S4000000x1_S4000000x64_1_0_n_n_0_1_164 : GatherDims S150000x64 S4000000x1 S4000000x64 where
  offsetDims := [1]
  collapsedSliceDims := [0]
  operandBatchingDims := []
  startIndicesBatchingDims := []
  startIndexMap := [0]
  indexVectorDim := 1
  sliceSizes := ![1, 64]
  wf := gather_S150000x64_S4000000x1_S4000000x64_1_0_n_n_0_1_164_wf
def scatter_S150000x64_S4000000x1_S4000000x64_1_0_0_1 : ScatterDims S150000x64 S4000000x1 S4000000x64 where
  updateWindowDims := [1]
  insertedWindowDims := [0]
  scatterDimsToOperandDims := [0]
  indexVectorDim := 1
  wf := scatter_S150000x64_S4000000x1_S4000000x64_1_0_0_1_wf

abbrev win0_0 : Pipeline.Window sig grid0 :=
  Pipeline.Window.ofSpec (Memref.whole main_v14) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v31) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v33) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v48) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v49) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v50) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x64 : Shape := ⟨2, ![100000, 64]⟩
abbrev S50000x64 : Shape := ⟨2, ![50000, 64]⟩
abbrev S4000000 : Shape := ⟨1, ![4000000]⟩
abbrev S150000x64 : Shape := ⟨2, ![150000, 64]⟩
abbrev S4000000x1 : Shape := ⟨2, ![4000000, 1]⟩
abbrev S_ : Shape := ⟨0, ![]⟩
abbrev S4000000x64 : Shape := ⟨2, ![4000000, 64]⟩

abbrev nBuf : Space → Nat
  | .hbm => 62
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S4000000, .f32⟩
  | .hbm, ⟨3, _⟩ => ⟨S4000000, .i32⟩
  | .hbm, ⟨4, _⟩ => ⟨S4000000, .i32⟩
  | .hbm, ⟨5, _⟩ => ⟨S150000x64, .f32⟩
  | .hbm, ⟨6, _⟩ => ⟨S4000000x1, .f32⟩
  | .hbm, ⟨7, _⟩ => ⟨S_, .i32⟩
  | .hbm, ⟨8, _⟩ => ⟨S4000000, .i32⟩
  | .hbm, ⟨9, _⟩ => ⟨S4000000, .i1⟩
  | .hbm, ⟨10, _⟩ => ⟨S_, .i32⟩
  | .hbm, ⟨11, _⟩ => ⟨S4000000, .i32⟩
  | .hbm, ⟨12, _⟩ => ⟨S4000000, .i32⟩
  | .hbm, ⟨13, _⟩ => ⟨S4000000, .i32⟩
  | .hbm, ⟨14, _⟩ => ⟨S4000000x1, .i32⟩
  | .hbm, ⟨15, _⟩ => ⟨S4000000x64, .f32⟩
  | .hbm, ⟨16, _⟩ => ⟨S4000000x64, .f32⟩
  | .hbm, ⟨17, _⟩ => ⟨S4000000x64, .f32⟩
  | .hbm, ⟨18, _⟩ => ⟨S_, .f32⟩
  | .hbm, ⟨19, _⟩ => ⟨S150000x64, .f32⟩
  | .hbm, ⟨20, _⟩ => ⟨S4000000x1, .i32⟩
  | .hbm, ⟨21, _⟩ => ⟨S150000x64, .f32⟩
  | .hbm, ⟨22, _⟩ => ⟨S150000x64, .f32⟩
  | .hbm, ⟨23, _⟩ => ⟨S4000000x1, .f32⟩
  | .hbm, ⟨24, _⟩ => ⟨S_, .i32⟩
  | .hbm, ⟨25, _⟩ => ⟨S4000000, .i32⟩
  | .hbm, ⟨26, _⟩ => ⟨S4000000, .i1⟩
  | .hbm, ⟨27, _⟩ => ⟨S_, .i32⟩
  | .hbm, ⟨28, _⟩ => ⟨S4000000, .i32⟩
  | .hbm, ⟨29, _⟩ => ⟨S4000000, .i32⟩
  | .hbm, ⟨30, _⟩ => ⟨S4000000, .i32⟩
  | .hbm, ⟨31, _⟩ => ⟨S4000000x1, .i32⟩
  | .hbm, ⟨32, _⟩ => ⟨S4000000x64, .f32⟩
  | .hbm, ⟨33, _⟩ => ⟨S4000000x64, .f32⟩
  | .hbm, ⟨34, _⟩ => ⟨S4000000x64, .f32⟩
  | .hbm, ⟨35, _⟩ => ⟨S_, .f32⟩
  | .hbm, ⟨36, _⟩ => ⟨S150000x64, .f32⟩
  | .hbm, ⟨37, _⟩ => ⟨S4000000x1, .i32⟩
  | .hbm, ⟨38, _⟩ => ⟨S150000x64, .f32⟩
  | .hbm, ⟨39, _⟩ => ⟨S150000x64, .f32⟩
  | .hbm, ⟨40, _⟩ => ⟨S4000000x1, .f32⟩
  | .hbm, ⟨41, _⟩ => ⟨S_, .i32⟩
  | .hbm, ⟨42, _⟩ => ⟨S4000000, .i32⟩
  | .hbm, ⟨43, _⟩ => ⟨S4000000, .i1⟩
  | .hbm, ⟨44, _⟩ => ⟨S_, .i32⟩
  | .hbm, ⟨45, _⟩ => ⟨S4000000, .i32⟩
  | .hbm, ⟨46, _⟩ => ⟨S4000000, .i32⟩
  | .hbm, ⟨47, _⟩ => ⟨S4000000, .i32⟩
  | .hbm, ⟨48, _⟩ => ⟨S4000000x1, .i32⟩
  | .hbm, ⟨49, _⟩ => ⟨S4000000x64, .f32⟩
  | .hbm, ⟨50, _⟩ => ⟨S4000000x64, .f32⟩
  | .hbm, ⟨51, _⟩ => ⟨S4000000x64, .f32⟩
  | .hbm, ⟨52, _⟩ => ⟨S_, .f32⟩
  | .hbm, ⟨53, _⟩ => ⟨S150000x64, .f32⟩
  | .hbm, ⟨54, _⟩ => ⟨S4000000x1, .i32⟩
  | .hbm, ⟨55, _⟩ => ⟨S150000x64, .f32⟩
  | .hbm, ⟨56, _⟩ => ⟨S150000x64, .f32⟩
  | .hbm, ⟨57, _⟩ => ⟨S_, .f32⟩
  | .hbm, ⟨58, _⟩ => ⟨S150000x64, .f32⟩
  | .hbm, ⟨59, _⟩ => ⟨S150000x64, .f32⟩
  | .hbm, ⟨60, _⟩ => ⟨S100000x64, .f32⟩
  | .hbm, ⟨61, _⟩ => ⟨S50000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c_1 : Ref sig .tc := ⟨.hbm, 24, rfl⟩
abbrev main_v16 : Ref sig .tc := ⟨.hbm, 25, rfl⟩
abbrev main_v17 : Ref sig .tc := ⟨.hbm, 26, rfl⟩
abbrev main_c_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_c_4 : Ref sig .tc := ⟨.hbm, 41, rfl⟩
abbrev main_v30 : Ref sig .tc := ⟨.hbm, 42, rfl⟩
abbrev main_v31 : Ref sig .tc := ⟨.hbm, 43, rfl⟩
abbrev main_c_5 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_6 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_7 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩

abbrev nD : Nat := 1
abbrev τ : Topo := Topo.v7x

variable {F : FTy → Type} [FloatOps F]

class Facts₀ : Prop where
  concatenates_S100000x64_S50000x64_S150000x64_d0 : Shape.Concatenates [S100000x64, S50000x64] S150000x64 0
  bcast_S4000000_S4000000x1_0 : S4000000.BroadcastsInDim S4000000x1 (![0] : Fin 1 → Fin S4000000x1.rank)
  bcast_S_S4000000 : S_.BroadcastsInDim S4000000 (![] : Fin 0 → Fin S4000000.rank)
  bcast_S4000000x1_S4000000x64_0_1 : S4000000x1.BroadcastsInDim S4000000x64 (![0, 1] : Fin 2 → Fin S4000000x64.rank)
  bcast_S_S150000x64 : S_.BroadcastsInDim S150000x64 (![] : Fin 0 → Fin S150000x64.rank)
  slices_S150000x64_S100000x64_0_0 : S150000x64.Slices ![0, 0] S100000x64
  slices_S150000x64_S50000x64_100000_0 : S150000x64.Slices ![100000, 0] S50000x64
  gather_S150000x64_S4000000x1_S4000000x64_1_0_n_n_0_1_164_wf : GatherDims.WF S150000x64 S4000000x1 S4000000x64 [1] [0] [] [0] [] 1 ![1, 64]
  scatter_S150000x64_S4000000x1_S4000000x64_1_0_0_1_wf : ScatterDims.WF S150000x64 S4000000x1 S4000000x64 [1] [0] [0] 1

variable [Facts₀]

def gather_S150000x64_S4000000x1_S4000000x64_1_0_n_n_0_1_164 : GatherDims S150000x64 S4000000x1 S4000000x64 where
  offsetDims := [1]
  collapsedSliceDims := [0]
  operandBatchingDims := []
  startIndicesBatchingDims := []
  startIndexMap := [0]
  indexVectorDim := 1
  sliceSizes := ![1, 64]
  wf := gather_S150000x64_S4000000x1_S4000000x64_1_0_n_n_0_1_164_wf
def scatter_S150000x64_S4000000x1_S4000000x64_1_0_0_1 : ScatterDims S150000x64 S4000000x1 S4000000x64 where
  updateWindowDims := [1]
  insertedWindowDims := [0]
  scatterDimsToOperandDims := [0]
  indexVectorDim := 1
  wf := scatter_S150000x64_S4000000x1_S4000000x64_1_0_0_1_wf

class Facts : Prop extends Facts₀ where

variable [Facts]
-- ==== Proof.Regions.lean ====
/-
  The three accumulate regions, each read as ONE whole-array function of the arrays it is entered with.

  Every region runs the same pipeline over a [75000, 128] array cut into 15 row blocks of [5000, 128]: at grid point
  `t` both inputs and the output move together through block (t, 0), and the body stores, over the whole block, the
  elementwise sum of the two input blocks (the last region: that sum times the constant 1/4 splat over the block).
  So block `t` of the output is block `t` of the elementwise sum of the two input ARRAYS, the 15 blocks tile the
  array (row `r` lies in block `r / 5000`), and the array a region leaves is that elementwise function of the two
  arrays it found — for any entry contents `V` and at any float instance.
-/
import proofs.«175857_j49675591745779_2_alg».proof.Proof.Gen.KernelIdeal.Frame
import Idealize.ShloMosaic.Lib.Pipeline.Value

noncomputable section

open Idealize.ShloMosaic Idealize.ShloMosaic.TcCoe Idealize.SL.Sem
open Idealize.ShloMosaic.Pipeline (Dat)

namespace Cert.KernelIdeal.Hand

open Cert.KernelIdeal Cert.KernelIdeal.Gen

variable {F : FTy → Type} [FloatOps F]
variable (V : (c : Dev nD) → (b : Ref sig .tc) → Buf (Elt F) ((c : Thread nD τ).loc b))

/-- The body's one store starts at the block's origin. -/
theorem origin : (![0, 0] : Fin 2 → Nat) = fun _ => 0 := funext fun a => by fin_cases a <;> rfl

/-- The elementwise sum of two [75000, 128] arrays. -/
abbrev sumArr (a b : S75000x128.Idx → Elt F .f32) : S75000x128.Idx → Elt F .f32 := fun i => FloatOps.addf (a i) (b i)

/-- The elementwise sum of two [75000, 128] arrays, every entry times the word `q`. -/
abbrev scaledSumArr (q : F .f32) (a b : S75000x128.Idx → Elt F .f32) : S75000x128.Idx → Elt F .f32 :=
  fun i => FloatOps.mulf (FloatOps.addf (a i) (b i)) q

/-! ## The payloads: a cast to the same shape is the identity -/

theorem pay0_eq (x0 x1 : Vec F S5000x128 .f32) : k0_pay1 x0 x1 = addf x0 x1 := by
  unfold k0_pay1; simp only [shapeCast_self]

theorem pay1_eq (x0 x1 : Vec F S5000x128 .f32) : k1_pay1 x0 x1 = addf x0 x1 := by
  unfold k1_pay1; simp only [shapeCast_self]

theorem pay2_eq (x0 x1 : Vec F S5000x128 .f32) :
    k2_pay1 x0 x1 = mulf (addf x0 x1) (broadcast S5000x128 (Scalar.ofBits .f32 0x3E800000#32)) := by
  unfold k2_pay1; simp only [shapeCast_self]

/-! ## Region 0 -/

/-- At point `t` all three windows sit on block (t, 0). -/
theorem blocks0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the sum of the two input arrays. -/
theorem flushed0_eq (c : Dev nD) (t : Fin cfg0.N) :
    (dat0 V c).flushed 2 t = ((cfg0.win 2).blk t).view.read (Elt F) (sumArr (V c main_v14) (V c main_v15)) := by
  show (cfg0.win 2).cut (grid0.coords t) ((dat0 V c).after 2 t) = _
  rw [after0_2]
  unfold out0_2
  rw [View.canon_unit_zero origin]
  simp only [View.ld_unit_zero (S := S5000x128) origin]
  rw [pay0_eq]
  obtain ⟨e0, e1, e2, e3, e4, e5⟩ := blocks0 t
  funext j
  show FloatOps.addf (V c main_v14 (((cfg0.win 0).blk t).view.emb j)) (V c main_v15 (((cfg0.win 1).blk t).view.emb j))
    = FloatOps.addf (V c main_v14 (((cfg0.win 2).blk t).view.emb j)) (V c main_v15 (((cfg0.win 2).blk t).view.emb j))
  have h0 : ((cfg0.win 0).blk t).view.emb j = ((cfg0.win 2).blk t).view.emb j := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * (j 1).val = win0_2.index t (1 : Fin 2) * 128 + 1 * (j 1).val; omega
  have h1 : ((cfg0.win 1).blk t).view.emb j = ((cfg0.win 2).blk t).view.emb j := by
    funext a; apply Fin.ext
    match a with
    | ⟨0, _⟩ => show win0_1.index t (0 : Fin 2) * 5000 + 1 * (j 0).val = win0_2.index t (0 : Fin 2) * 5000 + 1 * (j 0).val; omega
    | ⟨1, _⟩ => show win0_1.index t (1 : Fin 2) * 128 + 1 * (j 1).val = win0_2.index t (1 : Fin 2) * 128 + 1 * (j 1).val; omega
  rw [h0, h1]

/-- An index lies in point `t`'s output block iff each coordinate lies in the block's range on its axis. -/
theorem mem_blk0 (t : Fin cfg0.N) (i : S75000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v16).slice (win0_2.rect t)).set ↔ _
  rw [View.set_slice_whole, Rect.mem_set_unit]
  exact Iff.rfl

/-- Row `r` lies in the block of point `r / 5000`: the 15 output blocks cover the array. -/
theorem cover0 (i : S75000x128.Idx) : ∃ t : Fin cfg0.N, (cfg0.win 2).flush t = true ∧ i ∈ ((cfg0.win 2).blk t).view.set := by
  have hi0 : (i 0).val < 75000 := (i 0).isLt
  have hi1 : (i 1).val < 128 := (i 1).isLt
  have hN : grid0.N = 15 := N_0
  let t : Fin cfg0.N := ⟨(i 0).val / 5000, by show (i 0).val / 5000 < grid0.N; rw [hN]; omega⟩
  obtain ⟨e0, e1, e2, e3, e4, e5⟩ := blocks0 t
  have ht : t.val = (i 0).val / 5000 := rfl
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- Region 0 leaves in its output array the sum of the two arrays it read. -/
theorem region0 (c : Dev nD) : (dat0 V c).arrAt 2 cfg0.N = sumArr (V c main_v14) (V c main_v15) :=
  (dat0 V c).arrAt_eq_of_cover 2 (sumArr (V c main_v14) (V c main_v15)) (fun t _ => flushed0_eq V c t) cover0

/-! ## Region 1 -/

/-- At point `t` all three windows sit on block (t, 0). -/
theorem blocks1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the sum of the two input arrays. -/
theorem flushed1_eq (c : Dev nD) (t : Fin cfg1.N) :
    (dat1 V c).flushed 2 t = ((cfg1.win 2).blk t).view.read (Elt F) (sumArr (V c main_v31) (V c main_v32)) := by
  show (cfg1.win 2).cut (grid1.coords t) ((dat1 V c).after 2 t) = _
  rw [after1_2]
  unfold out1_2
  rw [View.canon_unit_zero origin]
  simp only [View.ld_unit_zero (S := S5000x128) origin]
  rw [pay1_eq]
  obtain ⟨e0, e1, e2, e3, e4, e5⟩ := blocks1 t
  funext j
  show FloatOps.addf (V c main_v31 (((cfg1.win 0).blk t).view.emb j)) (V c main_v32 (((cfg1.win 1).blk t).view.emb j))
    = FloatOps.addf (V c main_v31 (((cfg1.win 2).blk t).view.emb j)) (V c main_v32 (((cfg1.win 2).blk t).view.emb j))
  have h0 : ((cfg1.win 0).blk t).view.emb j = ((cfg1.win 2).blk t).view.emb j := by
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * (j 1).val = win1_2.index t (1 : Fin 2) * 128 + 1 * (j 1).val; omega
  have h1 : ((cfg1.win 1).blk t).view.emb j = ((cfg1.win 2).blk t).view.emb j := by
    funext a; apply Fin.ext
    match a with
    | ⟨0, _⟩ => show win1_1.index t (0 : Fin 2) * 5000 + 1 * (j 0).val = win1_2.index t (0 : Fin 2) * 5000 + 1 * (j 0).val; omega
    | ⟨1, _⟩ => show win1_1.index t (1 : Fin 2) * 128 + 1 * (j 1).val = win1_2.index t (1 : Fin 2) * 128 + 1 * (j 1).val; omega
  rw [h0, h1]

/-- An index lies in point `t`'s output block iff each coordinate lies in the block's range on its axis. -/
theorem mem_blk1 (t : Fin cfg1.N) (i : S75000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v33).slice (win1_2.rect t)).set ↔ _
  rw [View.set_slice_whole, Rect.mem_set_unit]
  exact Iff.rfl

/-- Row `r` lies in the block of point `r / 5000`: the 15 output blocks cover the array. -/
theorem cover1 (i : S75000x128.Idx) : ∃ t : Fin cfg1.N, (cfg1.win 2).flush t = true ∧ i ∈ ((cfg1.win 2).blk t).view.set := by
  have hi0 : (i 0).val < 75000 := (i 0).isLt
  have hi1 : (i 1).val < 128 := (i 1).isLt
  have hN : grid1.N = 15 := N_1
  let t : Fin cfg1.N := ⟨(i 0).val / 5000, by show (i 0).val / 5000 < grid1.N; rw [hN]; omega⟩
  obtain ⟨e0, e1, e2, e3, e4, e5⟩ := blocks1 t
  have ht : t.val = (i 0).val / 5000 := rfl
  refine ⟨t, flush1_2 t, ?_⟩
  rw [mem_blk1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- Region 1 leaves in its output array the sum of the two arrays it read. -/
theorem region1 (c : Dev nD) : (dat1 V c).arrAt 2 cfg1.N = sumArr (V c main_v31) (V c main_v32) :=
  (dat1 V c).arrAt_eq_of_cover 2 (sumArr (V c main_v31) (V c main_v32)) (fun t _ => flushed1_eq V c t) cover1

/-! ## Region 2 -/

/-- At point `t` all three windows sit on block (t, 0). -/
theorem blocks2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the sum of the two input arrays times 1/4. -/
theorem flushed2_eq (c : Dev nD) (t : Fin cfg2.N) :
    (dat2 V c).flushed 2 t = ((cfg2.win 2).blk t).view.read (Elt F) (scaledSumArr (Scalar.ofBits .f32 0x3E800000#32) (V c main_v48) (V c main_v49)) := by
  show (cfg2.win 2).cut (grid2.coords t) ((dat2 V c).after 2 t) = _
  rw [after2_2]
  unfold out2_2
  rw [View.canon_unit_zero origin]
  simp only [View.ld_unit_zero (S := S5000x128) origin]
  rw [pay2_eq]
  obtain ⟨e0, e1, e2, e3, e4, e5⟩ := blocks2 t
  funext j
  show FloatOps.mulf (FloatOps.addf (V c main_v48 (((cfg2.win 0).blk t).view.emb j)) (V c main_v49 (((cfg2.win 1).blk t).view.emb j))) (Scalar.ofBits .f32 0x3E800000#32)
    = FloatOps.mulf (FloatOps.addf (V c main_v48 (((cfg2.win 2).blk t).view.emb j)) (V c main_v49 (((cfg2.win 2).blk t).view.emb j))) (Scalar.ofBits .f32 0x3E800000#32)
  have h0 : ((cfg2.win 0).blk t).view.emb j = ((cfg2.win 2).blk t).view.emb j := by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * (j 1).val = win2_2.index t (1 : Fin 2) * 128 + 1 * (j 1).val; omega
  have h1 : ((cfg2.win 1).blk t).view.emb j = ((cfg2.win 2).blk t).view.emb j := by
    funext a; apply Fin.ext
    match a with
    | ⟨0, _⟩ => show win2_1.index t (0 : Fin 2) * 5000 + 1 * (j 0).val = win2_2.index t (0 : Fin 2) * 5000 + 1 * (j 0).val; omega
    | ⟨1, _⟩ => show win2_1.index t (1 : Fin 2) * 128 + 1 * (j 1).val = win2_2.index t (1 : Fin 2) * 128 + 1 * (j 1).val; omega
  rw [h0, h1]

/-- An index lies in point `t`'s output block iff each coordinate lies in the block's range on its axis. -/
theorem mem_blk2 (t : Fin cfg2.N) (i : S75000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v50).slice (win2_2.rect t)).set ↔ _
  rw [View.set_slice_whole, Rect.mem_set_unit]
  exact Iff.rfl

/-- Row `r` lies in the block of point `r / 5000`: the 15 output blocks cover the array. -/
theorem cover2 (i : S75000x128.Idx) : ∃ t : Fin cfg2.N, (cfg2.win 2).flush t = true ∧ i ∈ ((cfg2.win 2).blk t).view.set := by
  have hi0 : (i 0).val < 75000 := (i 0).isLt
  have hi1 : (i 1).val < 128 := (i 1).isLt
  have hN : grid2.N = 15 := N_2
  let t : Fin cfg2.N := ⟨(i 0).val / 5000, by show (i 0).val / 5000 < grid2.N; rw [hN]; omega⟩
  obtain ⟨e0, e1, e2, e3, e4, e5⟩ := blocks2 t
  have ht : t.val = (i 0).val / 5000 := rfl
  refine ⟨t, flush2_2 t, ?_⟩
  rw [mem_blk2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- Region 2 leaves in its output array the sum of the two arrays it read, every entry times the word of 1/4. -/
theorem region2 (c : Dev nD) : (dat2 V c).arrAt 2 cfg2.N = scaledSumArr (Scalar.ofBits .f32 0x3E800000#32) (V c main_v48) (V c main_v49) :=
  (dat2 V c).arrAt_eq_of_cover 2 (scaledSumArr (Scalar.ofBits .f32 0x3E800000#32) (V c main_v48) (V c main_v49)) (fun t _ => flushed2_eq V c t) cover2

end Cert.KernelIdeal.Hand

end
-- ==== Proof.Spec.lean ====
/-
  The mathematics both programs compute, as functions of the five argument arrays (at any float instance).

  `nodes` stacks the user table on the item table: one [150000, 64] table of node embeddings. One propagation `layer`
  sends a node table `x` to the table built in three steps: gather the rows of `x` at the edges' column indices (a
  negative index first counted from the end), scale gathered row `e` by `vals e`, and scatter-add the scaled rows into a
  zero table at the edges' row indices. For indices inside the table, row `r` of the result is the sum over the edges
  `e` with `row e = r` of `vals e · x (col e)`; an index outside the table is read as the host's gather and
  scatter-add read it. Both programs spell the layer with the same gather and scatter-add, so it is kept here as ONE
  closed definition and never opened.

  `pooled` is the mean over the layers the KERNEL's way: ((E + S₁) + S₂ + S₃) times the word of 1/4, with
  S₁ = layer E, S₂ = layer S₁, S₃ = layer S₂. The results are its first 100000 rows and its last 50000 rows.
-/
import proofs.«175857_j49675591745779_2_alg».proof.Proof.Gen.KernelIdeal

noncomputable section

open Idealize.ShloMosaic Idealize.ShloMosaic.TcCoe Idealize.SL.Sem

namespace Cert.KernelIdeal.Hand

open Cert.KernelIdeal Cert.KernelIdeal.Gen

variable {F : FTy → Type} [FloatOps F]

/-- The node table: the user rows, then the item rows. -/
def nodes (users : (⟨S100000x64, .f32⟩ : BufTy).Contents (Elt F)) (items : (⟨S50000x64, .f32⟩ : BufTy).Contents (Elt F)) :
    (⟨S150000x64, .f32⟩ : BufTy).Contents (Elt F) :=
  concatenate S150000x64 0 [⟨S100000x64, users⟩, ⟨S50000x64, items⟩] concatenates_S100000x64_S50000x64_S150000x64_d0

/-- One propagation layer: gather the rows of `x` at the column indices (negative ones counted from the end), scale row
    `e` by `vals e`, scatter-add into a zero table at the row indices. -/
def layer (vals : (⟨S4000000, .f32⟩ : BufTy).Contents (Elt F)) (row col : (⟨S4000000, .i32⟩ : BufTy).Contents (Elt F))
    (x : (⟨S150000x64, .f32⟩ : BufTy).Contents (Elt F)) : (⟨S150000x64, .f32⟩ : BufTy).Contents (Elt F) :=
  Host.scatterAdd scatter_S150000x64_S4000000x1_S4000000x64_1_0_0_1
    (broadcastInDim S150000x64 ![] bcast_S_S150000x64 (constant S_ .f32 0x00000000#32))
    (broadcastInDim S4000000x1 ![0] bcast_S4000000_S4000000x1_0 row)
    (mulf (broadcastInDim S4000000x64 ![0, 1] bcast_S4000000x1_S4000000x64_0_1 (broadcastInDim S4000000x1 ![0] bcast_S4000000_S4000000x1_0 vals))
      (Host.gather gather_S150000x64_S4000000x1_S4000000x64_1_0_n_n_0_1_164 x
        (broadcastInDim S4000000x1 ![0] bcast_S4000000_S4000000x1_0
          (select (cmpi .slt col (broadcastInDim S4000000 ![] bcast_S_S4000000 (constantI S_ 32 0#32)))
            (addi col (broadcastInDim S4000000 ![] bcast_S_S4000000 (constantI S_ 32 150000#32))) col))))

/-- The sum of the node table and its three propagated tables, in the order both programs add them. -/
def layerSum (users : (⟨S100000x64, .f32⟩ : BufTy).Contents (Elt F)) (items : (⟨S50000x64, .f32⟩ : BufTy).Contents (Elt F))
    (vals : (⟨S4000000, .f32⟩ : BufTy).Contents (Elt F)) (row col : (⟨S4000000, .i32⟩ : BufTy).Contents (Elt F)) :
    (⟨S150000x64, .f32⟩ : BufTy).Contents (Elt F) :=
  addf (addf (addf (nodes users items) (layer vals row col (nodes users items)))
    (layer vals row col (layer vals row col (nodes users items))))
    (layer vals row col (layer vals row col (layer vals row col (nodes users items))))

/-- The layer mean, the kernel's way: the sum times the word of 1/4. -/
def pooled (users : (⟨S100000x64, .f32⟩ : BufTy).Contents (Elt F)) (items : (⟨S50000x64, .f32⟩ : BufTy).Contents (Elt F))
    (vals : (⟨S4000000, .f32⟩ : BufTy).Contents (Elt F)) (row col : (⟨S4000000, .i32⟩ : BufTy).Contents (Elt F)) :
    (⟨S150000x64, .f32⟩ : BufTy).Contents (Elt F) :=
  mulf (layerSum users items vals row col) (broadcast S150000x64 (Scalar.ofBits .f32 0x3E800000#32))

/-- The first result: the user rows of the pooled table. -/
def pooledUsers (users : (⟨S100000x64, .f32⟩ : BufTy).Contents (Elt F)) (items : (⟨S50000x64, .f32⟩ : BufTy).Contents (Elt F))
    (vals : (⟨S4000000, .f32⟩ : BufTy).Contents (Elt F)) (row col : (⟨S4000000, .i32⟩ : BufTy).Contents (Elt F)) :
    (⟨S100000x64, .f32⟩ : BufTy).Contents (Elt F) :=
  extractStridedSlice S100000x64 ![0, 0] (pooled users items vals row col) slices_S150000x64_S100000x64_0_0

/-- The second result: the item rows of the pooled table. -/
def pooledItems (users : (⟨S100000x64, .f32⟩ : BufTy).Contents (Elt F)) (items : (⟨S50000x64, .f32⟩ : BufTy).Contents (Elt F))
    (vals : (⟨S4000000, .f32⟩ : BufTy).Contents (Elt F)) (row col : (⟨S4000000, .i32⟩ : BufTy).Contents (Elt F)) :
    (⟨S50000x64, .f32⟩ : BufTy).Contents (Elt F) :=
  extractStridedSlice S50000x64 ![100000, 0] (pooled users items vals row col) slices_S150000x64_S50000x64_100000_0

end Cert.KernelIdeal.Hand

end
-- ==== Proof.HostStages.lean ====
/-
  The four stretches of host operations around the three accumulate regions, each read at the buffers the next
  region (or the return) takes, as functions of the buffer contents `W` the stretch is entered with.

  Before region 0: the node table is stacked, its first propagated table S₁ computed, and both are re-laid as
  [75000, 128] (two consecutive 64-wide rows become one 128-wide row). Between regions: the region's [75000, 128]
  output is re-laid back to [150000, 64], the next propagated table is computed from the previous one, and both are
  re-laid as [75000, 128] again. After region 2: the output is re-laid to [150000, 64] and cut into its first 100000
  and last 50000 rows. No stretch writes an argument array.
-/
import proofs.«175857_j49675591745779_2_alg».proof.Proof.Spec
import proofs.«175857_j49675591745779_2_alg».proof.Proof.Gen.KernelIdeal.Launch
import Idealize.ShloMosaic.Lib.StableHlo.Run

noncomputable section

open Idealize.ShloMosaic Idealize.ShloMosaic.TcCoe Idealize.SL.Sem Idealize.ShloMosaic.StableHlo

namespace Cert.KernelIdeal.Hand

open Cert.KernelIdeal Cert.KernelIdeal.Gen

variable {F : FTy → Type} [FloatOps F]
variable (W : Valuation τ sig (Elt F))

/-- [150000, 64] re-laid as [75000, 128], row-major position kept. -/
abbrev pack (x : (⟨S150000x64, .f32⟩ : BufTy).Contents (Elt F)) : (⟨S75000x128, .f32⟩ : BufTy).Contents (Elt F) :=
  shapeCast S75000x128 x shapeCasts_S150000x64_S75000x128

/-- [75000, 128] re-laid as [150000, 64], row-major position kept. -/
abbrev unpack (y : (⟨S75000x128, .f32⟩ : BufTy).Contents (Elt F)) : (⟨S150000x64, .f32⟩ : BufTy).Contents (Elt F) :=
  shapeCast S150000x64 y shapeCasts_S75000x128_S150000x64

/-! ## Before region 0 -/

set_option maxHeartbeats 1000000 in
theorem stretch0_table : after hostOps0 W (Proc.devRef .tc main_v13)
    = layer (W (Proc.devRef .tc main_arg2)) (W (Proc.devRef .tc main_arg3)) (W (Proc.devRef .tc main_arg4))
        (nodes (W (Proc.devRef .tc main_arg0)) (W (Proc.devRef .tc main_arg1))) := by
  dsimp only [hostOps0]; after_results_simp; rfl

theorem stretch0_lhs : after hostOps0 W (Proc.devRef .tc main_v14)
    = pack (nodes (W (Proc.devRef .tc main_arg0)) (W (Proc.devRef .tc main_arg1))) := by
  dsimp only [hostOps0]; after_results_simp; rfl

set_option maxHeartbeats 1000000 in
theorem stretch0_rhs : after hostOps0 W (Proc.devRef .tc main_v15)
    = pack (layer (W (Proc.devRef .tc main_arg2)) (W (Proc.devRef .tc main_arg3)) (W (Proc.devRef .tc main_arg4))
        (nodes (W (Proc.devRef .tc main_arg0)) (W (Proc.devRef .tc main_arg1)))) := by
  dsimp only [hostOps0]; after_results_simp; rfl

theorem stretch0_vals : after hostOps0 W (Proc.devRef .tc main_arg2) = W (Proc.devRef .tc main_arg2) := by
  dsimp only [hostOps0]; after_results_simp
theorem stretch0_row : after hostOps0 W (Proc.devRef .tc main_arg3) = W (Proc.devRef .tc main_arg3) := by
  dsimp only [hostOps0]; after_results_simp
theorem stretch0_col : after hostOps0 W (Proc.devRef .tc main_arg4) = W (Proc.devRef .tc main_arg4) := by
  dsimp only [hostOps0]; after_results_simp

/-! ## Between regions 0 and 1 -/

theorem stretch1_back : after hostOps1 W (Proc.devRef .tc main_v17) = unpack (W (Proc.devRef .tc main_v16)) := by
  dsimp only [hostOps1]; after_results_simp; rfl

set_option maxHeartbeats 1000000 in
theorem stretch1_table : after hostOps1 W (Proc.devRef .tc main_v30)
    = layer (W (Proc.devRef .tc main_arg2)) (W (Proc.devRef .tc main_arg3)) (W (Proc.devRef .tc main_arg4))
        (W (Proc.devRef .tc main_v13)) := by
  dsimp only [hostOps1]; after_results_simp; rfl

theorem stretch1_lhs : after hostOps1 W (Proc.devRef .tc main_v31) = pack (unpack (W (Proc.devRef .tc main_v16))) := by
  dsimp only [hostOps1]; after_results_simp; rfl

set_option maxHeartbeats 1000000 in
theorem stretch1_rhs : after hostOps1 W (Proc.devRef .tc main_v32)
    = pack (layer (W (Proc.devRef .tc main_arg2)) (W (Proc.devRef .tc main_arg3)) (W (Proc.devRef .tc main_arg4))
        (W (Proc.devRef .tc main_v13))) := by
  dsimp only [hostOps1]; after_results_simp; rfl

theorem stretch1_vals : after hostOps1 W (Proc.devRef .tc main_arg2) = W (Proc.devRef .tc main_arg2) := by
  dsimp only [hostOps1]; after_results_simp
theorem stretch1_row : after hostOps1 W (Proc.devRef .tc main_arg3) = W (Proc.devRef .tc main_arg3) := by
  dsimp only [hostOps1]; after_results_simp
theorem stretch1_col : after hostOps1 W (Proc.devRef .tc main_arg4) = W (Proc.devRef .tc main_arg4) := by
  dsimp only [hostOps1]; after_results_simp

/-! ## Between regions 1 and 2 -/

theorem stretch2_back : after hostOps2 W (Proc.devRef .tc main_v34) = unpack (W (Proc.devRef .tc main_v33)) := by
  dsimp only [hostOps2]; after_results_simp; rfl

set_option maxHeartbeats 1000000 in
theorem stretch2_table : after hostOps2 W (Proc.devRef .tc main_v47)
    = layer (W (Proc.devRef .tc main_arg2)) (W (Proc.devRef .tc main_arg3)) (W (Proc.devRef .tc main_arg4))
        (W (Proc.devRef .tc main_v30)) := by
  dsimp only [hostOps2]; after_results_simp; rfl

theorem stretch2_lhs : after hostOps2 W (Proc.devRef .tc main_v48) = pack (unpack (W (Proc.devRef .tc main_v33))) := by
  dsimp only [hostOps2]; after_results_simp; rfl

set_option maxHeartbeats 1000000 in
theorem stretch2_rhs : after hostOps2 W (Proc.devRef .tc main_v49)
    = pack (layer (W (Proc.devRef .tc main_arg2)) (W (Proc.devRef .tc main_arg3)) (W (Proc.devRef .tc main_arg4))
        (W (Proc.devRef .tc main_v30))) := by
  dsimp only [hostOps2]; after_results_simp; rfl

theorem stretch2_vals : after hostOps2 W (Proc.devRef .tc main_arg2) = W (Proc.devRef .tc main_arg2) := by
  dsimp only [hostOps2]; after_results_simp
theorem stretch2_row : after hostOps2 W (Proc.devRef .tc main_arg3) = W (Proc.devRef .tc main_arg3) := by
  dsimp only [hostOps2]; after_results_simp
theorem stretch2_col : after hostOps2 W (Proc.devRef .tc main_arg4) = W (Proc.devRef .tc main_arg4) := by
  dsimp only [hostOps2]; after_results_simp

/-! ## After region 2 -/

theorem stretch3_users : after hostOps3 W (Proc.devRef .tc main_v52)
    = extractStridedSlice S100000x64 ![0, 0] (unpack (W (Proc.devRef .tc main_v50))) slices_S150000x64_S100000x64_0_0 := by
  dsimp only [hostOps3]; after_results_simp; rfl

theorem stretch3_items : after hostOps3 W (Proc.devRef .tc main_v53)
    = extractStridedSlice S50000x64 ![100000, 0] (unpack (W (Proc.devRef .tc main_v50))) slices_S150000x64_S50000x64_100000_0 := by
  dsimp only [hostOps3]; after_results_simp; rfl

end Cert.KernelIdeal.Hand

end
-- ==== Proof.KernelRun.lean ====
/-
  The kernel program's run with its two result arrays NAMED: every weakly fair execution of @main terminates without a
  fault, the results end at what the last boundary of the run's fold through the host stretches and the regions holds
  at their buffers, and the five argument arrays end as launched.
-/
import proofs.«175857_j49675591745779_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the seven segments (four host stretches, three regions) from the launch, read at the end against the
    last boundary's contents: at the two result buffers and at the five argument buffers. -/
theorem run_results : θ_run defs (onTc (τ := τ) (main (F := F))) ⟨m, fun _ => 0, ρ⟩ (fun r => ∀ c : Dev nD,
      r.2.mem ((c.tc : Thread nD τ).loc main_v52) = W7 m ρ c (Proc.devRef .tc main_v52)
      ∧ r.2.mem ((c.tc : Thread nD τ).loc main_v53) = W7 m ρ c (Proc.devRef .tc main_v53)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v52 (by decide)),
       h c _ (mem_uc main_v53 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c)⟩)

end Cert.KernelIdeal.Hand

end
-- ==== Proof.KernelValue.lean ====
/-
  The kernel program's two results as functions of its five arguments.

  The run's buffer contents at its eight segment boundaries are a fold from the launch memory: a host stretch's
  operations applied in order, a region's three arrays at what its write-backs leave and every other buffer kept. Read
  through that fold: region 0 adds the re-laid node table E and its propagated table S₁; the stretch after it re-lays
  that sum back and forth (which changes nothing) and computes S₂ from S₁; region 1 adds S₂; the next stretch computes
  S₃ from S₂; region 2 adds S₃ and scales by the word of 1/4; the last stretch re-lays the result as [150000, 64] and
  cuts the user rows and the item rows. Re-laying commutes with every elementwise operation and cancels against its
  inverse, so the result table is ((E + S₁) + S₂ + S₃) · (1/4) entry by entry: `pooled`.
-/
import proofs.«175857_j49675591745779_2_alg».proof.Proof.Regions
import proofs.«175857_j49675591745779_2_alg».proof.Proof.HostStages
import proofs.«175857_j49675591745779_2_alg».proof.Proof.KernelRun
import Idealize.ShloMosaic.Lib.Pipeline.Value

noncomputable section

open Idealize.ShloMosaic Idealize.ShloMosaic.TcCoe Idealize.SL.Sem Idealize.ShloMosaic.StableHlo

namespace Cert.KernelIdeal.Hand

open Cert.KernelIdeal Cert.KernelIdeal.Gen

variable {F : FTy → Type} [FloatOps F]

/-! ## Re-laying [150000, 64] as [75000, 128] and back -/

theorem unpack_pack (x : (⟨S150000x64, .f32⟩ : BufTy).Contents (Elt F)) : unpack (pack x) = x :=
  shapeCast_shapeCast x shapeCasts_S150000x64_S75000x128 shapeCasts_S75000x128_S150000x64

theorem pack_unpack (y : (⟨S75000x128, .f32⟩ : BufTy).Contents (Elt F)) : pack (unpack y) = y :=
  shapeCast_shapeCast y shapeCasts_S75000x128_S150000x64 shapeCasts_S150000x64_S75000x128

/-- Re-laying an elementwise sum is the elementwise sum of the re-laid arrays. -/
theorem unpack_sumArr (u v : (⟨S75000x128, .f32⟩ : BufTy).Contents (Elt F)) :
    unpack (sumArr u v) = addf (unpack u) (unpack v) := rfl

/-- The same for the scaled sum: the scale is one word at every index of either shape. -/
theorem unpack_scaledSumArr (q : F .f32) (u v : (⟨S75000x128, .f32⟩ : BufTy).Contents (Elt F)) :
    unpack (scaledSumArr q u v) = mulf (addf (unpack u) (unpack v)) (broadcast S150000x64 q) := rfl

variable (m : (ℓ : Loc nD τ sig) → Buf (Elt F) ℓ) (ρ : Dev nD → PrngReg) (c : Dev nD)

/-- The node table of the launch memory's arguments. -/
abbrev tab0 : (⟨S150000x64, .f32⟩ : BufTy).Contents (Elt F) := nodes (m ((c : Thread nD τ).loc main_arg0)) (m ((c : Thread nD τ).loc main_arg1))
/-- One propagation layer over the launch memory's edge list. -/
abbrev step (x : (⟨S150000x64, .f32⟩ : BufTy).Contents (Elt F)) : (⟨S150000x64, .f32⟩ : BufTy).Contents (Elt F) :=
  layer (m ((c : Thread nD τ).loc main_arg2)) (m ((c : Thread nD τ).loc main_arg3)) (m ((c : Thread nD τ).loc main_arg4)) x
/-- Region 0's output: E + S₁, re-laid. -/
abbrev acc1 : (⟨S75000x128, .f32⟩ : BufTy).Contents (Elt F) := sumArr (pack (tab0 m c)) (pack (step m c (tab0 m c)))
/-- Region 1's output: (E + S₁) + S₂, re-laid. -/
abbrev acc2 : (⟨S75000x128, .f32⟩ : BufTy).Contents (Elt F) := sumArr (acc1 m c) (pack (step m c (step m c (tab0 m c))))
/-- Region 2's output: (((E + S₁) + S₂) + S₃) · (1/4), re-laid. -/
abbrev acc3 : (⟨S75000x128, .f32⟩ : BufTy).Contents (Elt F) :=
  scaledSumArr (Scalar.ofBits .f32 0x3E800000#32) (acc2 m c) (pack (step m c (step m c (step m c (tab0 m c)))))

/-! ## Region 0's entry (boundary 1) and exit (boundary 2) -/

theorem b1_table : W1 m ρ c (Proc.devRef .tc main_v13) = step m c (tab0 m c) := stretch0_table (W0 m ρ c)
theorem b1_lhs : W1 m ρ c (Proc.devRef .tc main_v14) = pack (tab0 m c) := stretch0_lhs (W0 m ρ c)
theorem b1_rhs : W1 m ρ c (Proc.devRef .tc main_v15) = pack (step m c (tab0 m c)) := stretch0_rhs (W0 m ρ c)
theorem b1_vals : W1 m ρ c (Proc.devRef .tc main_arg2) = (m ((c : Thread nD τ).loc main_arg2)) := stretch0_vals (W0 m ρ c)
theorem b1_row : W1 m ρ c (Proc.devRef .tc main_arg3) = (m ((c : Thread nD τ).loc main_arg3)) := stretch0_row (W0 m ρ c)
theorem b1_col : W1 m ρ c (Proc.devRef .tc main_arg4) = (m ((c : Thread nD τ).loc main_arg4)) := stretch0_col (W0 m ρ c)

theorem b2_acc : W2 m ρ c (Proc.devRef .tc main_v16) = acc1 m c :=
  (W2_arr m ρ c 2).trans ((region0 (V1 m ρ) c).trans (by
    show sumArr (W1 m ρ c (Proc.devRef .tc main_v14)) (W1 m ρ c (Proc.devRef .tc main_v15)) = _
    rw [b1_lhs, b1_rhs]))
theorem b2_table : W2 m ρ c (Proc.devRef .tc main_v13) = step m c (tab0 m c) :=
  (W2_of_ne m ρ c main_v13 (by decide)).trans (b1_table m ρ c)
theorem b2_vals : W2 m ρ c (Proc.devRef .tc main_arg2) = (m ((c : Thread nD τ).loc main_arg2)) := (W2_of_ne m ρ c main_arg2 (by decide)).trans (b1_vals m ρ c)
theorem b2_row : W2 m ρ c (Proc.devRef .tc main_arg3) = (m ((c : Thread nD τ).loc main_arg3)) := (W2_of_ne m ρ c main_arg3 (by decide)).trans (b1_row m ρ c)
theorem b2_col : W2 m ρ c (Proc.devRef .tc main_arg4) = (m ((c : Thread nD τ).loc main_arg4)) := (W2_of_ne m ρ c main_arg4 (by decide)).trans (b1_col m ρ c)

/-! ## Region 1's entry (boundary 3) and exit (boundary 4) -/

theorem b3_table : W3 m ρ c (Proc.devRef .tc main_v30) = step m c (step m c (tab0 m c)) :=
  (stretch1_table (W2 m ρ c)).trans (by rw [b2_vals, b2_row, b2_col, b2_table])
theorem b3_lhs : W3 m ρ c (Proc.devRef .tc main_v31) = acc1 m c :=
  (stretch1_lhs (W2 m ρ c)).trans (by rw [b2_acc, pack_unpack])
theorem b3_rhs : W3 m ρ c (Proc.devRef .tc main_v32) = pack (step m c (step m c (tab0 m c))) :=
  (stretch1_rhs (W2 m ρ c)).trans (by rw [b2_vals, b2_row, b2_col, b2_table])
theorem b3_vals : W3 m ρ c (Proc.devRef .tc main_arg2) = (m ((c : Thread nD τ).loc main_arg2)) := (stretch1_vals (W2 m ρ c)).trans (b2_vals m ρ c)
theorem b3_row : W3 m ρ c (Proc.devRef .tc main_arg3) = (m ((c : Thread nD τ).loc main_arg3)) := (stretch1_row (W2 m ρ c)).trans (b2_row m ρ c)
theorem b3_col : W3 m ρ c (Proc.devRef .tc main_arg4) = (m ((c : Thread nD τ).loc main_arg4)) := (stretch1_col (W2 m ρ c)).trans (b2_col m ρ c)

theorem b4_acc : W4 m ρ c (Proc.devRef .tc main_v33) = acc2 m c :=
  (W4_arr m ρ c 2).trans ((region1 (V3 m ρ) c).trans (by
    show sumArr (W3 m ρ c (Proc.devRef .tc main_v31)) (W3 m ρ c (Proc.devRef .tc main_v32)) = _
    rw [b3_lhs, b3_rhs]))
theorem b4_table : W4 m ρ c (Proc.devRef .tc main_v30) = step m c (step m c (tab0 m c)) :=
  (W4_of_ne m ρ c main_v30 (by decide)).trans (b3_table m ρ c)
theorem b4_vals : W4 m ρ c (Proc.devRef .tc main_arg2) = (m ((c : Thread nD τ).loc main_arg2)) := (W4_of_ne m ρ c main_arg2 (by decide)).trans (b3_vals m ρ c)
theorem b4_row : W4 m ρ c (Proc.devRef .tc main_arg3) = (m ((c : Thread nD τ).loc main_arg3)) := (W4_of_ne m ρ c main_arg3 (by decide)).trans (b3_row m ρ c)
theorem b4_col : W4 m ρ c (Proc.devRef .tc main_arg4) = (m ((c : Thread nD τ).loc main_arg4)) := (W4_of_ne m ρ c main_arg4 (by decide)).trans (b3_col m ρ c)

/-! ## Region 2's entry (boundary 5) and exit (boundary 6) -/

theorem b5_lhs : W5 m ρ c (Proc.devRef .tc main_v48) = acc2 m c :=
  (stretch2_lhs (W4 m ρ c)).trans (by rw [b4_acc, pack_unpack])
theorem b5_rhs : W5 m ρ c (Proc.devRef .tc main_v49) = pack (step m c (step m c (step m c (tab0 m c)))) :=
  (stretch2_rhs (W4 m ρ c)).trans (by rw [b4_vals, b4_row, b4_col, b4_table])

theorem b6_acc : W6 m ρ c (Proc.devRef .tc main_v50) = acc3 m c :=
  (W6_arr m ρ c 2).trans ((region2 (V5 m ρ) c).trans (by
    show scaledSumArr (Scalar.ofBits .f32 0x3E800000#32) (W5 m ρ c (Proc.devRef .tc main_v48)) (W5 m ρ c (Proc.devRef .tc main_v49)) = _
    rw [b5_lhs, b5_rhs]))

/-! ## The results (boundary 7) -/

/-- Region 2's output re-laid as [150000, 64] is the pooled table. -/
theorem unpack_acc3 : unpack (acc3 m c) = pooled (m ((c : Thread nD τ).loc main_arg0)) (m ((c : Thread nD τ).loc main_arg1)) (m ((c : Thread nD τ).loc main_arg2)) (m ((c : Thread nD τ).loc main_arg3)) (m ((c : Thread nD τ).loc main_arg4)) := by
  unfold pooled layerSum
  rw [unpack_scaledSumArr, unpack_sumArr, unpack_sumArr, unpack_pack, unpack_pack, unpack_pack, unpack_pack]

theorem b7_users : W7 m ρ c (Proc.devRef .tc main_v52) = pooledUsers (m ((c : Thread nD τ).loc main_arg0)) (m ((c : Thread nD τ).loc main_arg1)) (m ((c : Thread nD τ).loc main_arg2)) (m ((c : Thread nD τ).loc main_arg3)) (m ((c : Thread nD τ).loc main_arg4)) :=
  (stretch3_users (W6 m ρ c)).trans (by rw [b6_acc, unpack_acc3]; rfl)
theorem b7_items : W7 m ρ c (Proc.devRef .tc main_v53) = pooledItems (m ((c : Thread nD τ).loc main_arg0)) (m ((c : Thread nD τ).loc main_arg1)) (m ((c : Thread nD τ).loc main_arg2)) (m ((c : Thread nD τ).loc main_arg3)) (m ((c : Thread nD τ).loc main_arg4)) :=
  (stretch3_items (W6 m ρ c)).trans (by rw [b6_acc, unpack_acc3]; rfl)

/-! ## The run, read -/

/-- Every weakly fair execution of the kernel program terminates without a fault, with the two results at the user rows
    and the item rows of the pooled table of the launch memory's arguments, the arguments unchanged. -/
theorem run : θ_run defs (onTc (τ := τ) (main (F := F))) ⟨m, fun _ => 0, ρ⟩ (fun r => ∀ c : Dev nD,
      r.2.mem ((c.tc : Thread nD τ).loc main_v52) = pooledUsers (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c.tc : Thread nD τ).loc main_v53) = pooledItems (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (b7_users m ρ c), (h c).2.1.trans (b7_items m ρ c), (h c).2.2⟩)
    (run_results m ρ)

end Cert.KernelIdeal.Hand

end
-- ==== Proof.LibQuarter.lean ====
/-
  Dividing by four is multiplying by a quarter, on every extended real.

  The f32 word 0x40800000 is the real 4 and the word 0x3E800000 is the real 1/4 (both dyadic, so their binary values are
  exact). At the ideal instance the host's quotient of an extended real `x` by a nonzero REAL `y` is the product of `x`
  with the real `1 / y` — at the infinities too — so `x / 4 = x · (1/4)` with no finiteness assumption.
-/
import Idealize.ShloMosaic.PureOps.Ideal

noncomputable section

namespace Cert.LibQuarter

open Idealize.ShloMosaic

/-- The f32 word of `4.0` denotes the real 4. -/
theorem ofBits_four : Ideal.ofBits .f32 0x40800000#32 = ((4 : ℝ) : EReal) := by
  simp [Ideal.ofBits, Ideal.ieee, -EReal.coe_mul]; norm_num

/-- The f32 word of `0.25` denotes the real 1/4. -/
theorem ofBits_quarter : Ideal.ofBits .f32 0x3E800000#32 = ((1 / 4 : ℝ) : EReal) := by
  simp [Ideal.ofBits, Ideal.ieee, -EReal.coe_mul]; norm_num

/-- On every extended real, the ideal quotient by the word of 4 is the product with the word of 1/4. -/
theorem div_four_eq_mul_quarter (x : EReal) :
    Ideal.div x (Ideal.ofBits .f32 0x40800000#32) = x * Ideal.ofBits .f32 0x3E800000#32 := by
  rw [ofBits_four, ofBits_quarter, Ideal.div_coe (by norm_num : (4 : ℝ) ≠ 0)]

end Cert.LibQuarter

end
-- ==== Proof.RefValue.lean ====
/-
  The reference program's two results are the kernel's functions of the same arguments.

  The reference stacks the same node table E, propagates it three times through the same gather, scale and scatter-add,
  adds ((E + S₁) + S₂) + S₃ in the same order, and divides every entry by the word of 4 where the kernel multiplies by
  the word of 1/4. On the extended reals the quotient by 4 IS the product with 1/4, at the infinities too, so the two
  tables are equal entry by entry with no finiteness assumption; the results are the same row ranges of them.
-/
import proofs.«175857_j49675591745779_2_alg».proof.Proof.Spec
import proofs.«175857_j49675591745779_2_alg».proof.Proof.LibQuarter
import proofs.«175857_j49675591745779_2_alg».proof.Proof.Gen.ReferenceIdeal.Run

noncomputable section

open Idealize.ShloMosaic Idealize.ShloMosaic.TcCoe Idealize.SL.Sem

namespace Cert.ReferenceIdeal.Hand

open Cert.ReferenceIdeal Cert.ReferenceIdeal.Gen Cert.ReferenceIdeal.Value

/-- Entry by entry, the host's quotient of a table by the splat of the word of 4 is its product with the splat of the
    word of 1/4. -/
theorem quotient_eq_scaled (T : FVec Ideal S150000x64 .f32) :
    Host.divf T (broadcastInDim S150000x64 ![] bcast_S_S150000x64 (constant S_ .f32 0x40800000#32))
      = mulf T (broadcast S150000x64 (Scalar.ofBits .f32 0x3E800000#32)) := by
  funext i
  show Ideal.div (T i) (Ideal.ofBits .f32 0x40800000#32) = T i * Ideal.ofBits .f32 0x3E800000#32
  exact Cert.LibQuarter.div_four_eq_mul_quarter _

variable (m : (ℓ : Loc nD τ sig) → Buf (Elt Ideal) ℓ) (c : Dev nD)

/-- The reference's first result is the user rows of the pooled table of its arguments. -/
theorem users_eq : res_out0 (F := Ideal) m c
    = Cert.KernelIdeal.Hand.pooledUsers (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) := by
  show res_main_v45 m c = _
  unfold res_main_v45
  rw [quotient_eq_scaled]
  rfl

/-- The reference's second result is the item rows of the pooled table of its arguments. -/
theorem items_eq : res_out1 (F := Ideal) m c
    = Cert.KernelIdeal.Hand.pooledItems (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) := by
  show res_main_v46 m c = _
  unfold res_main_v46
  rw [quotient_eq_scaled]
  rfl

end Cert.ReferenceIdeal.Hand

end
-- ==== Proof.lean ====
/-
  Three propagation layers of a sparse adjacency over a node table, pooled by the mean over the four tables, in two
  spellings that agree on the extended reals.

  Both programs stack the user and item embeddings into one node table E, propagate it three times (S₁, S₂, S₃: gather
  the rows at the edges' columns, scale by the edge values, scatter-add by the edges' rows) and return the user rows and
  the item rows of the mean of E, S₁, S₂, S₃. The kernel adds the tables pairwise in three grid-pipelined regions over a
  [75000, 128] re-laying of the [150000, 64] tables, the last one multiplying by the word of 1/4; the reference adds them
  on the host and divides by the word of 4. Re-laying commutes with elementwise operations, and x / 4 = x · (1/4) on
  every extended real, so the results are equal entry by entry; the precondition is not used for that.

  The frames of the two kernel programs are their generated frame certificates; the reference's is its generated run with
  the results dropped; the idealization rewrote nothing.
-/
import proofs.«175857_j49675591745779_2_alg».proof.Defs
import proofs.«175857_j49675591745779_2_alg».proof.Proof.Gen.Kernel
import proofs.«175857_j49675591745779_2_alg».proof.Proof.Gen.Kernel.Skeleton
import proofs.«175857_j49675591745779_2_alg».proof.Proof.Gen.Kernel.Launch
import proofs.«175857_j49675591745779_2_alg».proof.Proof.Gen.Kernel.Points
import proofs.«175857_j49675591745779_2_alg».proof.Proof.Gen.Kernel.Frame
import proofs.«175857_j49675591745779_2_alg».proof.Proof.Gen.KernelIdeal
import proofs.«175857_j49675591745779_2_alg».proof.Proof.Gen.KernelIdeal.Skeleton
import proofs.«175857_j49675591745779_2_alg».proof.Proof.Gen.KernelIdeal.Launch
import proofs.«175857_j49675591745779_2_alg».proof.Proof.Gen.KernelIdeal.Points
import proofs.«175857_j49675591745779_2_alg».proof.Proof.Gen.KernelIdeal.Frame
import proofs.«175857_j49675591745779_2_alg».proof.Proof.Gen.ReferenceIdeal
import proofs.«175857_j49675591745779_2_alg».proof.Proof.Gen.ReferenceIdeal.Run
import proofs.«175857_j49675591745779_2_alg».proof.Proof.Gen.Pre_finite_inputs
import proofs.«175857_j49675591745779_2_alg».proof.Proof.KernelValue
import proofs.«175857_j49675591745779_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- From memories agreeing on the five arguments both programs end with the user rows and the item rows of the pooled
    table of those arguments. -/
theorem algebraic : Cert.algebraic_KernelIdeal_ReferenceIdeal := by
  intro m ρ m' ρ' _ hagree
  refine ⟨_, _, Cert.KernelIdeal.Hand.run (F := Ideal) m ρ, ?_⟩
  refine (θ_run Cert.ReferenceIdeal.defs _ _).mono (fun _ h c => ?_) (Cert.ReferenceIdeal.Value.run (F := Ideal) m' ρ')
  obtain ⟨h0, h1, h2⟩ := h c
  obtain ⟨e0, e1, e2, e3, e4⟩ := hagree c
  refine ⟨h0.trans ?_, h1.trans ?_, h2⟩
  · exact (Cert.ReferenceIdeal.Hand.users_eq m' c).trans (by rw [e0, e1, e2, e3, e4])
  · exact (Cert.ReferenceIdeal.Hand.items_eq m' c).trans (by rw [e0, e1, e2, e3, e4])

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
